-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x1024 : Shape := ⟨2, ![256, 1024]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  main_v23

def fn {F : FTy → Type} [FloatOps F] (main_arg0 : FVec F S65536x256 .f32) (main_arg1 : FVec F S65536x256 .f32) (main_arg2 : FVec F S65536x256 .f32) (main_arg3 : FVec F S256x1024 .f32) (main_arg4 : FVec F S256x1024 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_v13 main_v16
-- ==== Kernel.lean ====
abbrev S65536x256 : Shape := ⟨2, ![65536, 256]⟩
abbrev S256x1024 : Shape := ⟨2, ![256, 1024]⟩
abbrev S_ : Shape := ⟨0, ![]⟩
abbrev S1024x256 : Shape := ⟨2, ![1024, 256]⟩
abbrev S1024x1024 : Shape := ⟨2, ![1024, 1024]⟩

abbrev nBuf : Space → Nat
  | .hbm => 25
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256x1024, .f32⟩
  | .hbm, ⟨7, _⟩ => ⟨S256x1024, .i1⟩
  | .hbm, ⟨8, _⟩ => ⟨S_, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .bf16⟩
  | .hbm, ⟨14, _⟩ => ⟨S_, .f32⟩
  | .hbm, ⟨15, _⟩ => ⟨S256x1024, .f32⟩
  | .hbm, ⟨16, _⟩ => ⟨S256x1024, .i1⟩
  | .hbm, ⟨17, _⟩ => ⟨S_, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S65536x256, .f32⟩
  | .hbm, ⟨24, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x1024, .bf16⟩
  | .local _ .vmem, ⟨7, _⟩ => ⟨S256x1024, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S256x1024 : S_.BroadcastsInDim S256x1024 (![] : Fin 0 → Fin S256x1024.rank)
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x256_S1024x256_0_0 : ∀ a, (![0, 0] : Fin 2 → Nat) a + S1024x256.size a ≤ S1024x256.size a
  h_S1024x256 : 0 < S1024x256.numel
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S65536x256.size a
  hwx0_5 : ∀ i : grid0.Coords, EltTy.bits .f32 = 32 ∨ (Rect.block (s := S65536x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S65536x256.size a
  hwx0_6 : ∀ i : grid0.Coords, EltTy.bits .f32 = 32 ∨ (Rect.block (s := S65536x256) S1024x256.size (cc0_transform_6 i) (hinb0_6 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x1024 : Shape := ⟨2, ![256, 1024]⟩
abbrev S_ : Shape := ⟨0, ![]⟩
abbrev S65536x1024 : Shape := ⟨2, ![65536, 1024]⟩

abbrev nBuf : Space → Nat
  | .hbm => 113
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S65536x256, .f32⟩
  | .hbm, ⟨9, _⟩ => ⟨S65536x256, .f32⟩
  | .hbm, ⟨10, _⟩ => ⟨S_, .f32⟩
  | .hbm, ⟨11, _⟩ => ⟨S65536x256, .f32⟩
  | .hbm, ⟨12, _⟩ => ⟨S65536x256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S65536x256, .f32⟩
  | .hbm, ⟨20, _⟩ => ⟨S65536x256, .f32⟩
  | .hbm, ⟨21, _⟩ => ⟨S_, .f32⟩
  | .hbm, ⟨22, _⟩ => ⟨S256x1024, .f32⟩
  | .hbm, ⟨23, _⟩ => ⟨S256x1024, .i1⟩
  | .hbm, ⟨24, _⟩ => ⟨S_, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S65536x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536x1024, .f32⟩
  | .hbm, ⟨38, _⟩ => ⟨S65536x1024, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S_, .f32⟩
  | .hbm, ⟨44, _⟩ => ⟨S256x1024, .f32⟩
  | .hbm, ⟨45, _⟩ => ⟨S256x1024, .i1⟩
  | .hbm, ⟨46, _⟩ => ⟨S_, .f32⟩
  | .hbm, ⟨47, _⟩ => ⟨S_, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S65536x1024, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S65536x256, .f32⟩
  | .hbm, ⟨57, _⟩ => ⟨S65536x256, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S65536x256, .f32⟩
  | .hbm, ⟨62, _⟩ => ⟨S65536x256, .f32⟩
  | .hbm, ⟨63, _⟩ => ⟨S_, .f32⟩
  | .hbm, ⟨64, _⟩ => ⟨S65536x256, .f32⟩
  | .hbm, ⟨65, _⟩ => ⟨S65536x256, .f32⟩
  | .hbm, ⟨66, _⟩ => ⟨S65536x256, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S65536x256, .f32⟩
  | .hbm, ⟨71, _⟩ => ⟨S65536x256, .f32⟩
  | .hbm, ⟨72, _⟩ => ⟨S_, .f32⟩
  | .hbm, ⟨73, _⟩ => ⟨S65536x256, .f32⟩
  | .hbm, ⟨74, _⟩ => ⟨S65536x256, .f32⟩
  | .hbm, ⟨75, _⟩ => ⟨S65536x256, .f32⟩
  | .hbm, ⟨76, _⟩ => ⟨S65536x256, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S65536x256, .f32⟩
  | .hbm, ⟨81, _⟩ => ⟨S65536x256, .f32⟩
  | .hbm, ⟨82, _⟩ => ⟨S_, .f32⟩
  | .hbm, ⟨83, _⟩ => ⟨S65536x256, .f32⟩
  | .hbm, ⟨84, _⟩ => ⟨S65536x256, .f32⟩
  | .hbm, ⟨85, _⟩ => ⟨S65536x256, .f32⟩
  | .hbm, ⟨86, _⟩ => ⟨S65536x256, .f32⟩
  | .hbm, ⟨87, _⟩ => ⟨S65536x256, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S65536x256, .f32⟩
  | .hbm, ⟨92, _⟩ => ⟨S65536x256, .f32⟩
  | .hbm, ⟨93, _⟩ => ⟨S_, .f32⟩
  | .hbm, ⟨94, _⟩ => ⟨S65536x256, .f32⟩
  | .hbm, ⟨95, _⟩ => ⟨S65536x256, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S65536x256, .f32⟩
  | .hbm, ⟨100, _⟩ => ⟨S65536x256, .f32⟩
  | .hbm, ⟨101, _⟩ => ⟨S_, .f32⟩
  | .hbm, ⟨102, _⟩ => ⟨S65536x256, .f32⟩
  | .hbm, ⟨103, _⟩ => ⟨S65536x256, .f32⟩
  | .hbm, ⟨104, _⟩ => ⟨S65536x256, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S65536x256, .f32⟩
  | .hbm, ⟨109, _⟩ => ⟨S65536x256, .f32⟩
  | .hbm, ⟨110, _⟩ => ⟨S_, .f32⟩
  | .hbm, ⟨111, _⟩ => ⟨S65536x256, .f32⟩
  | .hbm, ⟨112, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v1 : Ref sig .tc := ⟨.hbm, 20, rfl⟩
abbrev main_cst_3 : Ref sig .tc := ⟨.hbm, 21, rfl⟩
abbrev main_v2 : Ref sig .tc := ⟨.hbm, 22, rfl⟩
abbrev main_v3 : Ref sig .tc := ⟨.hbm, 23, rfl⟩
abbrev main_cst_4 : Ref sig .tc := ⟨.hbm, 24, rfl⟩
abbrev main_cst_5 : Ref sig .tc := ⟨.hbm, 25, rfl⟩
abbrev main_call2_v0 : Ref sig .tc := ⟨.hbm, 26, rfl⟩
abbrev main_call2_v1 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_6 : Ref sig .tc := ⟨.hbm, 31, rfl⟩
abbrev main_cst_7 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_8 : Ref sig .tc := ⟨.hbm, 43, rfl⟩
abbrev main_v12 : Ref sig .tc := ⟨.hbm, 44, rfl⟩
abbrev main_v13 : Ref sig .tc := ⟨.hbm, 45, rfl⟩
abbrev main_cst_9 : Ref sig .tc := ⟨.hbm, 46, rfl⟩
abbrev main_cst_10 : Ref sig .tc := ⟨.hbm, 47, rfl⟩
abbrev main_call4_v0 : Ref sig .tc := ⟨.hbm, 48, rfl⟩
abbrev main_call4_v1 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_11 : Ref sig .tc := ⟨.hbm, 58, rfl⟩
abbrev main_cst_12 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_v22 : Ref sig .tc := ⟨.hbm, 65, rfl⟩
abbrev main_v23 : Ref sig .tc := ⟨.hbm, 66, rfl⟩
abbrev main_cst_13 : Ref sig .tc := ⟨.hbm, 67, rfl⟩
abbrev main_cst_14 : Ref sig .tc := ⟨.hbm, 68, rfl⟩
abbrev main_call6_v0 : Ref sig .tc := ⟨.hbm, 69, rfl⟩
abbrev main_call6_v1 : Ref sig .tc := ⟨.hbm, 70, rfl⟩
abbrev main_call6_v2 : Ref sig .tc := ⟨.hbm, 71, rfl⟩
abbrev main_call6_v3 : Ref sig .tc := ⟨.hbm, 72, rfl⟩
abbrev main_call6_v4 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_cst_15 : Ref sig .tc := ⟨.hbm, 77, rfl⟩
abbrev main_cst_16 : Ref sig .tc := ⟨.hbm, 78, rfl⟩
abbrev main_call7_v0 : Ref sig .tc := ⟨.hbm, 79, rfl⟩
abbrev main_call7_v1 : Ref sig .tc := ⟨.hbm, 80, rfl⟩
abbrev main_call7_v2 : Ref sig .tc := ⟨.hbm, 81, rfl⟩
abbrev main_call7_v3 : Ref sig .tc := ⟨.hbm, 82, rfl⟩
abbrev main_call7_v4 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_cst_17 : Ref sig .tc := ⟨.hbm, 88, rfl⟩
abbrev main_cst_18 : Ref sig .tc := ⟨.hbm, 89, rfl⟩
abbrev main_call8_v0 : Ref sig .tc := ⟨.hbm, 90, rfl⟩
abbrev main_call8_v1 : Ref sig .tc := ⟨.hbm, 91, rfl⟩
abbrev main_call8_v2 : Ref sig .tc := ⟨.hbm, 92, rfl⟩
abbrev main_call8_v3 : Ref sig .tc := ⟨.hbm, 93, rfl⟩
abbrev main_call8_v4 : Ref sig .tc := ⟨.hbm, 94, rfl⟩
abbrev main_v31 : Ref sig .tc := ⟨.hbm, 95, rfl⟩
abbrev main_cst_19 : Ref sig .tc := ⟨.hbm, 96, rfl⟩
abbrev main_cst_20 : Ref sig .tc := ⟨.hbm, 97, rfl⟩
abbrev main_call9_v0 : Ref sig .tc := ⟨.hbm, 98, rfl⟩
abbrev main_call9_v1 : Ref sig .tc := ⟨.hbm, 99, rfl⟩
abbrev main_call9_v2 : Ref sig .tc := ⟨.hbm, 100, rfl⟩
abbrev main_call9_v3 : Ref sig .tc := ⟨.hbm, 101, rfl⟩
abbrev main_call9_v4 : Ref sig .tc := ⟨.hbm, 102, rfl⟩
abbrev main_v32 : Ref sig .tc := ⟨.hbm, 103, rfl⟩
abbrev main_v33 : Ref sig .tc := ⟨.hbm, 104, rfl⟩
abbrev main_cst_21 : Ref sig .tc := ⟨.hbm, 105, rfl⟩
abbrev main_cst_22 : Ref sig .tc := ⟨.hbm, 106, rfl⟩
abbrev main_call10_v0 : Ref sig .tc := ⟨.hbm, 107, rfl⟩
abbrev main_call10_v1 : Ref sig .tc := ⟨.hbm, 108, rfl⟩
abbrev main_call10_v2 : Ref sig .tc := ⟨.hbm, 109, rfl⟩
abbrev main_call10_v3 : Ref sig .tc := ⟨.hbm, 110, rfl⟩
abbrev main_call10_v4 : Ref sig .tc := ⟨.hbm, 111, rfl⟩
abbrev main_v34 : Ref sig .tc := ⟨.hbm, 112, rfl⟩

abbrev nD : Nat := 1
abbrev τ : Topo := Topo.v7x

variable {F : FTy → Type} [FloatOps F]

class Facts₀ : Prop where
  bcast_S_S65536x256 : S_.BroadcastsInDim S65536x256 (![] : Fin 0 → Fin S65536x256.rank)
  bcast_S_S256x1024 : S_.BroadcastsInDim S256x1024 (![] : Fin 0 → Fin S256x1024.rank)
  bcast_S_S65536x1024 : S_.BroadcastsInDim S65536x1024 (![] : Fin 0 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  dot_S65536x256_S256x1024_S65536x1024_1_0_0_1_n_n_wf : DotDims.WF S65536x256 S256x1024 S65536x1024 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf

class Facts : Prop extends Facts₀ where

variable [Facts]
-- ==== Proof.CellSpec.lean ====
/-
  One step of a binarised LSTM cell with hard-tanh activations, as a function of its five argument arrays, entry by
  entry, on the extended reals.

  For a batch row b and a unit u (256 units, four gates of 256 columns each in the two 256 × 1024 weight matrices):
    X n  = Σ_k inputs[b,k] · sign(kernel[k,n])             the input projection at gate column n
    R n  = Σ_k hardTanh(h[b,k]) · sign(recurrent[k,n])     the recurrent projection at gate column n
    f    = hardTanh(hardTanh(X u) + R (256+u))
    i    = hardTanh(hardTanh(X (256+u)) + R u)
    g    = hardTanh(hardTanh(X (512+u)) + R (512+u))
    o    = hardTanh(hardTanh(X (768+u)) + R (768+u))
    c'   = f · hardTanh(c[b,u]) + i · g
    h'   = hardTanh(o · hardTanh(c'))
  with hardTanh v = min 1 (max (-1) v) and sign w = +1 where w ≥ 0, -1 elsewhere. The forget gate pairs the input
  projection's first block with the recurrent projection's second, and the input gate the other way round; that crossing
  is part of the function, not a slip.

  Nothing here is evaluated: the three float words (0, 1, -1) stay as their f32 patterns, and the sums stay sums.
-/
import Idealize.ShloMosaic.PureOps.Ideal
import Idealize.ShloMosaic.Lib.ValueIdx

noncomputable section

open scoped BigOperators

namespace Cert.BinLstm

open Idealize.ShloMosaic Idealize.ShloMosaic.ValueIdx

/-- Batch rows by feature columns: the shape of `inputs`, `h`, `c` and of both results. -/
abbrev Rows : Shape := ⟨2, ![65536, 256]⟩
/-- Feature rows by gate columns: the shape of both weight matrices. -/
abbrev Gates : Shape := ⟨2, ![256, 1024]⟩

/-- The hard tanh: a value clamped to [-1, 1], written as the minimum of 1 with the maximum of -1 and the value. -/
def hardTanh (v : EReal) : EReal :=
  min (Ideal.ofBits .f32 0x3F800000#32) (max (Ideal.ofBits .f32 0xBF800000#32) v)

/-- The sign binarisation of a weight: +1 where the weight is at least 0, -1 elsewhere. -/
def signOf (w : EReal) : EReal :=
  Scalar.select (Ideal.cmp .oge w (Ideal.ofBits .f32 0x00000000#32)) (Ideal.ofBits .f32 0x3F800000#32)
    (Ideal.ofBits .f32 0xBF800000#32)

/-- A row of 256 features against column `n` of a 256 × 1024 matrix. -/
def project (row : Fin 256 → EReal) (W : Fin 256 → Fin 1024 → EReal) (n : Fin 1024) : EReal :=
  ∑ k : Fin 256, row k * W k n

/-- Unit `u`'s column in the first gate block (columns 0 to 255). -/
def col0 (u : Fin 256) : Fin 1024 := ⟨u.val, by have := u.isLt; omega⟩
/-- Unit `u`'s column in the second gate block (columns 256 to 511). -/
def col1 (u : Fin 256) : Fin 1024 := ⟨256 + u.val, by have := u.isLt; omega⟩
/-- Unit `u`'s column in the third gate block (columns 512 to 767). -/
def col2 (u : Fin 256) : Fin 1024 := ⟨512 + u.val, by have := u.isLt; omega⟩
/-- Unit `u`'s column in the fourth gate block (columns 768 to 1023). -/
def col3 (u : Fin 256) : Fin 1024 := ⟨768 + u.val, by have := u.isLt; omega⟩

/-- The new cell state of unit `u` in one batch row: from the row of inputs `xr`, the row of hidden values `hr`, the
    unit's old cell value `cv`, and the two sign matrices. -/
def cellNext (xr hr : Fin 256 → EReal) (cv : EReal) (Wk Wr : Fin 256 → Fin 1024 → EReal) (u : Fin 256) : EReal :=
  hardTanh (hardTanh (project xr Wk (col0 u)) + project (fun k => hardTanh (hr k)) Wr (col1 u)) * hardTanh cv
    + hardTanh (hardTanh (project xr Wk (col1 u)) + project (fun k => hardTanh (hr k)) Wr (col0 u))
      * hardTanh (hardTanh (project xr Wk (col2 u)) + project (fun k => hardTanh (hr k)) Wr (col2 u))

/-- The new hidden value of unit `u` in one batch row: the output gate times the clamped new cell state, clamped. -/
def hiddenNext (xr hr : Fin 256 → EReal) (cv : EReal) (Wk Wr : Fin 256 → Fin 1024 → EReal) (u : Fin 256) : EReal :=
  hardTanh (hardTanh (hardTanh (project xr Wk (col3 u)) + project (fun k => hardTanh (hr k)) Wr (col3 u))
    * hardTanh (cellNext xr hr cv Wk Wr u))

/-- The whole array of new cell states: entry (b, u) is `cellNext` of row b of `x` and of `h`, of `c` at (b, u), and of
    the two weight matrices' signs. -/
def cellArray (x h c : Rows.Idx → EReal) (wk wr : Gates.Idx → EReal) : Rows.Idx → EReal := fun i =>
  cellNext (fun k => x (ix2 (n0 := 65536) (n1 := 256) (i 0) k)) (fun k => h (ix2 (n0 := 65536) (n1 := 256) (i 0) k)) (c i)
    (fun k n => signOf (wk (ix2 k n))) (fun k n => signOf (wr (ix2 k n))) (i 1)

/-- The whole array of new hidden values, likewise. -/
def hiddenArray (x h c : Rows.Idx → EReal) (wk wr : Gates.Idx → EReal) : Rows.Idx → EReal := fun i =>
  hiddenNext (fun k => x (ix2 (n0 := 65536) (n1 := 256) (i 0) k)) (fun k => h (ix2 (n0 := 65536) (n1 := 256) (i 0) k)) (c i)
    (fun k n => signOf (wk (ix2 k n))) (fun k n => signOf (wr (ix2 k n))) (i 1)

end Cert.BinLstm

end
-- ==== Proof.RefCell.lean ====
/-
  The reference program's two result stages, read entry by entry, are the binarised LSTM step of CellSpec.

  The reference clamps h and c, binarises each weight matrix by sign, takes the two 65536 × 1024 projections as single
  matrix products, clamps the input projection, cuts both into four column blocks of 256, and combines them per unit.
  Each lemma below reads one of those stages at an entry (b, n) or (b, u) written with explicit coordinates; a matrix
  product at an entry is the sum over the 256 features, and a column block at (b, u) is the product at column
  256·g + u.
-/
import proofs.«163236_j44607530336603_2_alg».proof.Proof.Gen.ReferenceIdeal.Read
import proofs.«163236_j44607530336603_2_alg».proof.Proof.CellSpec

noncomputable section

open scoped BigOperators

namespace Cert.BinLstm.Ref

open Cert.ReferenceIdeal Cert.ReferenceIdeal.Read Idealize.ShloMosaic Idealize.ShloMosaic.ValueIdx Cert.BinLstm

variable (x0 x1 x2 : Rows.Idx → EReal) (x3 x4 : Gates.Idx → EReal)

/-! ## The clamped hidden and cell arrays, and the two sign matrices -/

/-- The reference's clamped h at an entry. -/
theorem hidden_clamped (b : Fin 65536) (k : Fin 256) :
    val_main_v0 (F := Ideal) x1 (ix2 b k) = hardTanh (x1 (ix2 b k)) := by
  rw [val_main_v0_apply, val_main_call0_v4_apply, val_main_call0_v3_apply, val_main_cst_0_apply,
    val_main_call0_v2_apply, val_main_call0_v1_apply, val_main_call0_v0_apply, val_main_cst_apply]
  rfl

/-- The reference's clamped c at an entry. -/
theorem cell_clamped (b : Fin 65536) (u : Fin 256) :
    val_main_v1 (F := Ideal) x2 (ix2 b u) = hardTanh (x2 (ix2 b u)) := by
  rw [val_main_v1_apply, val_main_call1_v4_apply, val_main_call1_v3_apply, val_main_cst_2_apply,
    val_main_call1_v2_apply, val_main_call1_v1_apply, val_main_call1_v0_apply, val_main_cst_1_apply]
  rfl

/-- The reference's binarised input weights at an entry: the sign of the weight. -/
theorem input_weight_sign (k : Fin 256) (n : Fin 1024) :
    val_main_v5 (F := Ideal) x3 (ix2 k n) = signOf (x3 (ix2 k n)) := by
  rw [val_main_v5_apply, val_main_v4_apply, val_main_v3_apply, val_main_v2_apply, val_main_cst_3_apply,
    val_main_call2_v0_apply, val_main_cst_4_apply, val_main_call2_v1_apply, val_main_cst_5_apply]
  rfl

/-- The reference's binarised recurrent weights at an entry: the sign of the weight. -/
theorem recurrent_weight_sign (k : Fin 256) (n : Fin 1024) :
    val_main_v15 (F := Ideal) x4 (ix2 k n) = signOf (x4 (ix2 k n)) := by
  rw [val_main_v15_apply, val_main_v14_apply, val_main_v13_apply, val_main_v12_apply, val_main_cst_8_apply,
    val_main_call4_v0_apply, val_main_cst_9_apply, val_main_call4_v1_apply, val_main_cst_10_apply]
  rfl

/-! ## The two projections -/

/-- The input projection at (b, n): row b of the inputs against column n of the sign matrix. -/
theorem input_projection (b : Fin 65536) (n : Fin 1024) :
    val_main_v6 (F := Ideal) x0 x3 (ix2 b n)
      = project (fun k => x0 (ix2 b k)) (fun k n => signOf (x3 (ix2 k n))) n := by
  rw [val_main_v6_apply]
  unfold project
  refine Finset.sum_congr rfl fun k _ => ?_
  have el : lidx_main_v6 (ix2 b n) k = ix2 b k := funext fun a => by
    match a with | ⟨0, _⟩ => rfl | ⟨1, _⟩ => rfl
  have er : ridx_main_v6 (ix2 b n) k = ix2 k n := funext fun a => by
    match a with | ⟨0, _⟩ => rfl | ⟨1, _⟩ => rfl
  rw [el, er, input_weight_sign]

/-- The clamped input projection at (b, n). -/
theorem input_projection_clamped (b : Fin 65536) (n : Fin 1024) :
    val_main_v7 (F := Ideal) x0 x3 (ix2 b n)
      = hardTanh (project (fun k => x0 (ix2 b k)) (fun k n => signOf (x3 (ix2 k n))) n) := by
  rw [val_main_v7_apply, val_main_call3_v4_apply, val_main_call3_v3_apply, val_main_cst_7_apply,
    val_main_call3_v2_apply, val_main_call3_v1_apply, val_main_call3_v0_apply, val_main_cst_6_apply,
    input_projection]
  rfl

/-- The recurrent projection at (b, n): row b of the clamped h against column n of the sign matrix. -/
theorem recurrent_projection (b : Fin 65536) (n : Fin 1024) :
    val_main_v16 (F := Ideal) x1 x4 (ix2 b n)
      = project (fun k => hardTanh (x1 (ix2 b k))) (fun k n => signOf (x4 (ix2 k n))) n := by
  rw [val_main_v16_apply]
  unfold project
  refine Finset.sum_congr rfl fun k _ => ?_
  have el : lidx_main_v16 (ix2 b n) k = ix2 b k := funext fun a => by
    match a with | ⟨0, _⟩ => rfl | ⟨1, _⟩ => rfl
  have er : ridx_main_v16 (ix2 b n) k = ix2 k n := funext fun a => by
    match a with | ⟨0, _⟩ => rfl | ⟨1, _⟩ => rfl
  rw [el, er, hidden_clamped, recurrent_weight_sign]

/-! ## The four column blocks of each projection, at unit u -/

theorem input_block0 (b : Fin 65536) (u : Fin 256) :
    val_main_v8 (F := Ideal) x0 x3 (ix2 b u) = val_main_v7 (F := Ideal) x0 x3 (ix2 b (col0 u)) := by
  rw [val_main_v8_apply]
  exact congrArg (val_main_v7 (F := Ideal) x0 x3) (funext fun a => by match a with | ⟨0, _⟩ => rfl | ⟨1, _⟩ => rfl)

theorem input_block1 (b : Fin 65536) (u : Fin 256) :
    val_main_v9 (F := Ideal) x0 x3 (ix2 b u) = val_main_v7 (F := Ideal) x0 x3 (ix2 b (col1 u)) := by
  rw [val_main_v9_apply]
  exact congrArg (val_main_v7 (F := Ideal) x0 x3) (funext fun a => by match a with | ⟨0, _⟩ => rfl | ⟨1, _⟩ => rfl)

theorem input_block2 (b : Fin 65536) (u : Fin 256) :
    val_main_v10 (F := Ideal) x0 x3 (ix2 b u) = val_main_v7 (F := Ideal) x0 x3 (ix2 b (col2 u)) := by
  rw [val_main_v10_apply]
  exact congrArg (val_main_v7 (F := Ideal) x0 x3) (funext fun a => by match a with | ⟨0, _⟩ => rfl | ⟨1, _⟩ => rfl)

theorem input_block3 (b : Fin 65536) (u : Fin 256) :
    val_main_v11 (F := Ideal) x0 x3 (ix2 b u) = val_main_v7 (F := Ideal) x0 x3 (ix2 b (col3 u)) := by
  rw [val_main_v11_apply]
  exact congrArg (val_main_v7 (F := Ideal) x0 x3) (funext fun a => by match a with | ⟨0, _⟩ => rfl | ⟨1, _⟩ => rfl)

theorem recurrent_block0 (b : Fin 65536) (u : Fin 256) :
    val_main_v17 (F := Ideal) x1 x4 (ix2 b u) = val_main_v16 (F := Ideal) x1 x4 (ix2 b (col0 u)) := by
  rw [val_main_v17_apply]
  exact congrArg (val_main_v16 (F := Ideal) x1 x4) (funext fun a => by match a with | ⟨0, _⟩ => rfl | ⟨1, _⟩ => rfl)

theorem recurrent_block1 (b : Fin 65536) (u : Fin 256) :
    val_main_v18 (F := Ideal) x1 x4 (ix2 b u) = val_main_v16 (F := Ideal) x1 x4 (ix2 b (col1 u)) := by
  rw [val_main_v18_apply]
  exact congrArg (val_main_v16 (F := Ideal) x1 x4) (funext fun a => by match a with | ⟨0, _⟩ => rfl | ⟨1, _⟩ => rfl)

theorem recurrent_block2 (b : Fin 65536) (u : Fin 256) :
    val_main_v19 (F := Ideal) x1 x4 (ix2 b u) = val_main_v16 (F := Ideal) x1 x4 (ix2 b (col2 u)) := by
  rw [val_main_v19_apply]
  exact congrArg (val_main_v16 (F := Ideal) x1 x4) (funext fun a => by match a with | ⟨0, _⟩ => rfl | ⟨1, _⟩ => rfl)

theorem recurrent_block3 (b : Fin 65536) (u : Fin 256) :
    val_main_v20 (F := Ideal) x1 x4 (ix2 b u) = val_main_v16 (F := Ideal) x1 x4 (ix2 b (col3 u)) := by
  rw [val_main_v20_apply]
  exact congrArg (val_main_v16 (F := Ideal) x1 x4) (funext fun a => by match a with | ⟨0, _⟩ => rfl | ⟨1, _⟩ => rfl)

/-! ## The gates -/

/-- The forget gate at (b, u): the input projection's first block with the recurrent projection's second. -/
theorem forget_gate (b : Fin 65536) (u : Fin 256) :
    val_main_v22 (F := Ideal) x0 x1 x3 x4 (ix2 b u)
      = hardTanh (hardTanh (project (fun k => x0 (ix2 b k)) (fun k n => signOf (x3 (ix2 k n))) (col0 u))
          + project (fun k => hardTanh (x1 (ix2 b k))) (fun k n => signOf (x4 (ix2 k n))) (col1 u)) := by
  rw [val_main_v22_apply, val_main_call5_v4_apply, val_main_call5_v3_apply, val_main_cst_12_apply,
    val_main_call5_v2_apply, val_main_call5_v1_apply, val_main_call5_v0_apply, val_main_cst_11_apply,
    val_main_v21_apply, input_block0, recurrent_block1, input_projection_clamped, recurrent_projection]
  rfl

/-- The input gate at (b, u): the input projection's second block with the recurrent projection's first. -/
theorem input_gate (b : Fin 65536) (u : Fin 256) :
    val_main_v24 (F := Ideal) x0 x1 x3 x4 (ix2 b u)
      = hardTanh (hardTanh (project (fun k => x0 (ix2 b k)) (fun k n => signOf (x3 (ix2 k n))) (col1 u))
          + project (fun k => hardTanh (x1 (ix2 b k))) (fun k n => signOf (x4 (ix2 k n))) (col0 u)) := by
  rw [val_main_v24_apply, val_main_call6_v4_apply, val_main_call6_v3_apply, val_main_cst_14_apply,
    val_main_call6_v2_apply, val_main_call6_v1_apply, val_main_call6_v0_apply, val_main_cst_13_apply,
    val_main_v23_apply, input_block1, recurrent_block0, input_projection_clamped, recurrent_projection]
  rfl

/-- The candidate at (b, u): the third blocks. -/
theorem candidate (b : Fin 65536) (u : Fin 256) :
    val_main_v27 (F := Ideal) x0 x1 x3 x4 (ix2 b u)
      = hardTanh (hardTanh (project (fun k => x0 (ix2 b k)) (fun k n => signOf (x3 (ix2 k n))) (col2 u))
          + project (fun k => hardTanh (x1 (ix2 b k))) (fun k n => signOf (x4 (ix2 k n))) (col2 u)) := by
  rw [val_main_v27_apply, val_main_call7_v4_apply, val_main_call7_v3_apply, val_main_cst_16_apply,
    val_main_call7_v2_apply, val_main_call7_v1_apply, val_main_call7_v0_apply, val_main_cst_15_apply,
    val_main_v26_apply, input_block2, recurrent_block2, input_projection_clamped, recurrent_projection]
  rfl

/-- The output gate at (b, u): the fourth blocks. -/
theorem output_gate (b : Fin 65536) (u : Fin 256) :
    val_main_v31 (F := Ideal) x0 x1 x3 x4 (ix2 b u)
      = hardTanh (hardTanh (project (fun k => x0 (ix2 b k)) (fun k n => signOf (x3 (ix2 k n))) (col3 u))
          + project (fun k => hardTanh (x1 (ix2 b k))) (fun k n => signOf (x4 (ix2 k n))) (col3 u)) := by
  rw [val_main_v31_apply, val_main_call8_v4_apply, val_main_call8_v3_apply, val_main_cst_18_apply,
    val_main_call8_v2_apply, val_main_call8_v1_apply, val_main_call8_v0_apply, val_main_cst_17_apply,
    val_main_v30_apply, input_block3, recurrent_block3, input_projection_clamped, recurrent_projection]
  rfl

/-! ## The two results -/

/-- The reference's new cell state at (b, u). -/
theorem cell_at (b : Fin 65536) (u : Fin 256) :
    val_main_v29 (F := Ideal) x0 x1 x2 x3 x4 (ix2 b u)
      = cellNext (fun k => x0 (ix2 b k)) (fun k => x1 (ix2 b k)) (x2 (ix2 b u))
          (fun k n => signOf (x3 (ix2 k n))) (fun k n => signOf (x4 (ix2 k n))) u := by
  rw [val_main_v29_apply, val_main_v25_apply, val_main_v28_apply, forget_gate, cell_clamped, input_gate, candidate]
  rfl

/-- The reference's new hidden value at (b, u). -/
theorem hidden_at (b : Fin 65536) (u : Fin 256) :
    val_main_v34 (F := Ideal) x0 x1 x2 x3 x4 (ix2 b u)
      = hiddenNext (fun k => x0 (ix2 b k)) (fun k => x1 (ix2 b k)) (x2 (ix2 b u))
          (fun k n => signOf (x3 (ix2 k n))) (fun k n => signOf (x4 (ix2 k n))) u := by
  rw [val_main_v34_apply, val_main_call10_v4_apply, val_main_call10_v3_apply, val_main_cst_22_apply,
    val_main_call10_v2_apply, val_main_call10_v1_apply, val_main_call10_v0_apply, val_main_cst_21_apply,
    val_main_v33_apply, output_gate, val_main_v32_apply, val_main_call9_v4_apply, val_main_call9_v3_apply,
    val_main_cst_20_apply, val_main_call9_v2_apply, val_main_call9_v1_apply, val_main_call9_v0_apply,
    val_main_cst_19_apply, cell_at]
  rfl

/-- The reference's cell-state result is the specification's array. -/
theorem cell_result : val_main_v29 (F := Ideal) x0 x1 x2 x3 x4 = cellArray x0 x1 x2 x3 x4 := by
  funext i
  obtain ⟨b, u, rfl⟩ : ∃ (b : Fin 65536) (u : Fin 256), i = ix2 b u := ⟨i 0, i 1, eq_ix2 i⟩
  rw [cell_at]
  rfl

/-- The reference's hidden result is the specification's array. -/
theorem hidden_result : val_main_v34 (F := Ideal) x0 x1 x2 x3 x4 = hiddenArray x0 x1 x2 x3 x4 := by
  funext i
  obtain ⟨b, u, rfl⟩ : ∃ (b : Fin 65536) (u : Fin 256), i = ix2 b u := ⟨i 0, i 1, eq_ix2 i⟩
  rw [hidden_at]
  rfl

end Cert.BinLstm.Ref

end
-- ==== Proof.KernelCell.lean ====
/-
  What the kernel body stores for one grid point, read entry by entry, is the binarised LSTM step of CellSpec on the
  point's blocks.

  At a grid point the body holds a block of 1024 batch rows of `inputs`, `h` and `c` (1024 × 256 each) and the two
  whole 256 × 1024 sign matrices. It forms both 1024 × 1024 projections as matrix products into a zero accumulator,
  cuts each into four column blocks of 256, and stores the new cell state and the new hidden value of every row of
  the block. The changes of float format on the way into the products are the identity on the extended reals, and a
  product into a zero accumulator at an entry is the plain sum over the 256 features.

  Every lemma is stated over variables of the block types with explicit coordinates (r a row of the block, u a unit,
  n a gate column); the blocks of a particular grid point are put in afterwards.
-/
import proofs.«163236_j44607530336603_2_alg».proof.Proof.Gen.KernelIdeal.Frame
import proofs.«163236_j44607530336603_2_alg».proof.Proof.CellSpec
import Idealize.ShloMosaic.Lib.Pipeline.Value
import Idealize.ShloMosaic.Lib.ValueIdx
import Idealize.ShloMosaic.PureOps.Ideal.Laws

noncomputable section

open scoped BigOperators

namespace Cert.BinLstm.Kern

open Cert.KernelIdeal Cert.KernelIdeal.Gen Idealize.ShloMosaic Idealize.ShloMosaic.ValueIdx Cert.BinLstm

/-- The body's loads and stores are through the whole-block rectangle: offsets zero on both axes. -/
theorem zero_offsets : (![0, 0] : Fin 2 → Nat) = fun _ => 0 := funext fun a => by fin_cases a <;> rfl

/-! ## A block product at an entry -/

theorem lhs_row (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl

theorem lhs_feature (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q

theorem rhs_feature (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q

theorem rhs_col (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- A 1024 × 256 block times a 256 × 1024 matrix into a zero accumulator, at entry (r, n): the sum over the 256
    features of row r's entries times column n's. -/
theorem block_product (lhs : FVec Ideal S1024x256 .bf16) (rhs : FVec Ideal S256x1024 .bf16) (r n : Fin 1024) :
    FloatOps.matmul dot_S1024x256_S256x1024_S1024x1024_1_0_0_1_n_n none lhs rhs (constant (F := Ideal) S1024x1024 .f32 0x00000000#32) (ix2 r n)
      = ∑ k : Fin 256, lhs (ix2 r k) * rhs (ix2 k n) := by
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r n) ((contrEquiv1 dot_S1024x256_S256x1024_S1024x1024_1_0_0_1_n_n 256 rfl rfl).symm k) = ix2 r k := funext fun a => Fin.ext (by
    match a with
    | ⟨0, _⟩ => exact lhs_row _ _
    | ⟨1, _⟩ => exact (lhs_feature _ _).trans hk)
  have er : dot_S1024x256_S256x1024_S1024x1024_1_0_0_1_n_n.rhsIdx (ix2 r n) ((contrEquiv1 dot_S1024x256_S256x1024_S1024x1024_1_0_0_1_n_n 256 rfl rfl).symm k) = ix2 k n := funext fun a => Fin.ext (by
    match a with
    | ⟨0, _⟩ => exact (rhs_feature _ _).trans hk
    | ⟨1, _⟩ => exact rhs_col _ _)
  rw [el, er]

/-! ## The body's values at an entry -/

section Payloads
variable (x0 x1 x2 : Vec Ideal S1024x256 .f32) (x3 x4 : Vec Ideal S256x1024 .bf16)

/-- The clamped input projection of the block at (r, n). -/
theorem input_projection_clamped (r n : Fin 1024) :
    k0_pay4 (F := Ideal) x3 x0 (ix2 r n)
      = hardTanh (project (fun k => x0 (ix2 r k)) (fun k n => x3 (ix2 k n)) n) := by
  show hardTanh (FloatOps.matmul dot_S1024x256_S256x1024_S1024x1024_1_0_0_1_n_n none (truncf .bf16 x0 bitsLt_bf16_f32)
      (shapeCast S256x1024 x3 shapeCasts_S256x1024_S256x1024) (constant (F := Ideal) S1024x1024 .f32 0x00000000#32) (ix2 r n)) = _
  rw [shapeCast_self, block_product]
  rfl

/-- The recurrent projection of the block at (r, n): the clamped h rows against the sign matrix. -/
theorem recurrent_projection (r n : Fin 1024) :
    k0_pay5 (F := Ideal) x4 x1 (ix2 r n)
      = project (fun k => hardTanh (x1 (ix2 r k))) (fun k n => x4 (ix2 k n)) n := by
  show FloatOps.matmul dot_S1024x256_S256x1024_S1024x1024_1_0_0_1_n_n none
      (truncf .bf16 (minimumf (broadcast S1024x256 (Scalar.ofBits (F := Ideal) .f32 0x3F800000#32))
        (maximumf (broadcast S1024x256 (Scalar.ofBits (F := Ideal) .f32 0xBF800000#32)) x1)) bitsLt_bf16_f32)
      (shapeCast S256x1024 x4 shapeCasts_S256x1024_S256x1024) (constant (F := Ideal) S1024x1024 .f32 0x00000000#32) (ix2 r n) = _
  rw [shapeCast_self, block_product]
  rfl

/-- The first column block of a 1024 × 1024 value at (r, u). -/
theorem first_block (v : FVec Ideal S1024x1024 .f32) (r : Fin 1024) (u : Fin 256) :
    extractStridedSlice S1024x256 ![0, 0] v slices_S1024x1024_o0_0_S1024x256 (ix2 r u) = v (ix2 r (col0 u)) :=
  extractStridedSlice_apply ![0, 0] v slices_S1024x1024_o0_0_S1024x256 (ix2 r u) (ix2 r (col0 u))
    (fun a => by match a with | ⟨0, _⟩ => exact (Nat.zero_add _).symm | ⟨1, _⟩ => exact (Nat.zero_add _).symm)

/-- The second column block of a 1024 × 1024 value at (r, u). -/
theorem second_block (v : FVec Ideal S1024x1024 .f32) (r : Fin 1024) (u : Fin 256) :
    extractStridedSlice S1024x256 ![0, 256] v slices_S1024x1024_o0_256_S1024x256 (ix2 r u) = v (ix2 r (col1 u)) :=
  extractStridedSlice_apply ![0, 256] v slices_S1024x1024_o0_256_S1024x256 (ix2 r u) (ix2 r (col1 u))
    (fun a => by match a with | ⟨0, _⟩ => exact (Nat.zero_add _).symm | ⟨1, _⟩ => rfl)

/-- The third column block of a 1024 × 1024 value at (r, u). -/
theorem third_block (v : FVec Ideal S1024x1024 .f32) (r : Fin 1024) (u : Fin 256) :
    extractStridedSlice S1024x256 ![0, 512] v slices_S1024x1024_o0_512_S1024x256 (ix2 r u) = v (ix2 r (col2 u)) :=
  extractStridedSlice_apply ![0, 512] v slices_S1024x1024_o0_512_S1024x256 (ix2 r u) (ix2 r (col2 u))
    (fun a => by match a with | ⟨0, _⟩ => exact (Nat.zero_add _).symm | ⟨1, _⟩ => rfl)

/-- The fourth column block of a 1024 × 1024 value at (r, u). -/
theorem fourth_block (v : FVec Ideal S1024x1024 .f32) (r : Fin 1024) (u : Fin 256) :
    extractStridedSlice S1024x256 ![0, 768] v slices_S1024x1024_o0_768_S1024x256 (ix2 r u) = v (ix2 r (col3 u)) :=
  extractStridedSlice_apply ![0, 768] v slices_S1024x1024_o0_768_S1024x256 (ix2 r u) (ix2 r (col3 u))
    (fun a => by match a with | ⟨0, _⟩ => exact (Nat.zero_add _).symm | ⟨1, _⟩ => rfl)

/-- The input projection's third column block at (r, u). -/
theorem input_block2 (r : Fin 1024) (u : Fin 256) :
    k0_pay6 (F := Ideal) x3 x0 (ix2 r u) = k0_pay4 (F := Ideal) x3 x0 (ix2 r (col2 u)) := by
  show extractStridedSlice S1024x256 ![0, 512] (k0_pay4 (F := Ideal) x3 x0) slices_S1024x1024_o0_512_S1024x256 (ix2 r u) = _
  exact third_block _ r u

/-- The input projection's fourth column block at (r, u). -/
theorem input_block3 (r : Fin 1024) (u : Fin 256) :
    k0_pay7 (F := Ideal) x3 x0 (ix2 r u) = k0_pay4 (F := Ideal) x3 x0 (ix2 r (col3 u)) := by
  show extractStridedSlice S1024x256 ![0, 768] (k0_pay4 (F := Ideal) x3 x0) slices_S1024x1024_o0_768_S1024x256 (ix2 r u) = _
  exact fourth_block _ r u

/-- The recurrent projection's third column block at (r, u). -/
theorem recurrent_block2 (r : Fin 1024) (u : Fin 256) :
    k0_pay8 (F := Ideal) x4 x1 (ix2 r u) = k0_pay5 (F := Ideal) x4 x1 (ix2 r (col2 u)) := by
  show extractStridedSlice S1024x256 ![0, 512] (k0_pay5 (F := Ideal) x4 x1) slices_S1024x1024_o0_512_S1024x256 (ix2 r u) = _
  exact third_block _ r u

/-- The recurrent projection's fourth column block at (r, u). -/
theorem recurrent_block3 (r : Fin 1024) (u : Fin 256) :
    k0_pay9 (F := Ideal) x4 x1 (ix2 r u) = k0_pay5 (F := Ideal) x4 x1 (ix2 r (col3 u)) := by
  show extractStridedSlice S1024x256 ![0, 768] (k0_pay5 (F := Ideal) x4 x1) slices_S1024x1024_o0_768_S1024x256 (ix2 r u) = _
  exact fourth_block _ r u

/-- The forget gate of the block at (r, u): the input projection's first block with the recurrent projection's
    second. -/
theorem forget_gate (r : Fin 1024) (u : Fin 256) :
    k0_pay10 (F := Ideal) x3 x4 x1 x0 (ix2 r u)
      = hardTanh (k0_pay4 (F := Ideal) x3 x0 (ix2 r (col0 u)) + k0_pay5 (F := Ideal) x4 x1 (ix2 r (col1 u))) := by
  show hardTanh (extractStridedSlice S1024x256 ![0, 0] (k0_pay4 (F := Ideal) x3 x0) slices_S1024x1024_o0_0_S1024x256 (ix2 r u)
      + extractStridedSlice S1024x256 ![0, 256] (k0_pay5 (F := Ideal) x4 x1) slices_S1024x1024_o0_256_S1024x256 (ix2 r u)) = _
  rw [first_block, second_block]

/-- The input gate's pre-activation at (r, u): the input projection's second block with the recurrent projection's
    first. -/
theorem input_gate_pre (r : Fin 1024) (u : Fin 256) :
    k0_pay11 (F := Ideal) x3 x4 x1 x0 (ix2 r u)
      = k0_pay4 (F := Ideal) x3 x0 (ix2 r (col1 u)) + k0_pay5 (F := Ideal) x4 x1 (ix2 r (col0 u)) := by
  show extractStridedSlice S1024x256 ![0, 256] (k0_pay4 (F := Ideal) x3 x0) slices_S1024x1024_o0_256_S1024x256 (ix2 r u)
      + extractStridedSlice S1024x256 ![0, 0] (k0_pay5 (F := Ideal) x4 x1) slices_S1024x1024_o0_0_S1024x256 (ix2 r u) = _
  rw [second_block, first_block]

/-- The stored new cell state of the block at (r, u). -/
theorem cell_payload (r : Fin 1024) (u : Fin 256) :
    k0_pay1 (F := Ideal) (k0_pay3 x2) (k0_pay6 x3 x0) (k0_pay8 x4 x1) (k0_pay10 x3 x4 x1 x0) (k0_pay11 x3 x4 x1 x0)
        (Scalar.ofBits .f32 0xBF800000#32) (Scalar.ofBits .f32 0x3F800000#32) (ix2 r u)
      = cellNext (fun k => x0 (ix2 r k)) (fun k => x1 (ix2 r k)) (x2 (ix2 r u))
          (fun k n => x3 (ix2 k n)) (fun k n => x4 (ix2 k n)) u := by
  show k0_pay10 (F := Ideal) x3 x4 x1 x0 (ix2 r u) * hardTanh (x2 (ix2 r u))
      + hardTanh (k0_pay11 (F := Ideal) x3 x4 x1 x0 (ix2 r u))
        * hardTanh (k0_pay6 (F := Ideal) x3 x0 (ix2 r u) + k0_pay8 (F := Ideal) x4 x1 (ix2 r u)) = _
  rw [forget_gate, input_gate_pre, input_block2, recurrent_block2, input_projection_clamped, input_projection_clamped,
    input_projection_clamped, recurrent_projection, recurrent_projection, recurrent_projection]
  rfl

/-- The stored new hidden value of the block at (r, u). -/
theorem hidden_payload (r : Fin 1024) (u : Fin 256) :
    k0_pay2 (F := Ideal) (k0_pay3 x2) (k0_pay6 x3 x0) (k0_pay7 x3 x0) (k0_pay8 x4 x1) (k0_pay9 x4 x1) (k0_pay10 x3 x4 x1 x0)
        (k0_pay11 x3 x4 x1 x0) (Scalar.ofBits .f32 0xBF800000#32) (Scalar.ofBits .f32 0x3F800000#32) (ix2 r u)
      = hiddenNext (fun k => x0 (ix2 r k)) (fun k => x1 (ix2 r k)) (x2 (ix2 r u))
          (fun k n => x3 (ix2 k n)) (fun k n => x4 (ix2 k n)) u := by
  show hardTanh (hardTanh (k0_pay7 (F := Ideal) x3 x0 (ix2 r u) + k0_pay9 (F := Ideal) x4 x1 (ix2 r u))
      * hardTanh (k0_pay1 (F := Ideal) (k0_pay3 x2) (k0_pay6 x3 x0) (k0_pay8 x4 x1) (k0_pay10 x3 x4 x1 x0) (k0_pay11 x3 x4 x1 x0)
          (Scalar.ofBits .f32 0xBF800000#32) (Scalar.ofBits .f32 0x3F800000#32) (ix2 r u))) = _
  rw [cell_payload, input_block3, recurrent_block3, input_projection_clamped, recurrent_projection]
  rfl

/-- What the body leaves in the cell-state output's buffer, at any entry of the block. -/
theorem cell_block (y : S1024x256.Idx) :
    out0_6 (F := Ideal) x0 x1 x2 x3 x4 y
      = cellNext (fun k => x0 (ix2 (n0 := 1024) (n1 := 256) (y 0) k)) (fun k => x1 (ix2 (n0 := 1024) (n1 := 256) (y 0) k)) (x2 y)
          (fun k n => x3 (ix2 k n)) (fun k n => x4 (ix2 k n)) (y 1) := by
  obtain ⟨r, u, rfl⟩ : ∃ (r : Fin 1024) (u : Fin 256), y = ix2 r u := ⟨y 0, y 1, eq_ix2 y⟩
  unfold out0_6
  rw [View.canon_unit_zero zero_offsets]
  simp only [View.ld_unit_zero (S := S1024x256) zero_offsets, View.ld_unit_zero (S := S256x1024) zero_offsets]
  exact cell_payload x0 x1 x2 x3 x4 r u

/-- What the body leaves in the hidden output's buffer, at any entry of the block. -/
theorem hidden_block (y : S1024x256.Idx) :
    out0_5 (F := Ideal) x0 x1 x2 x3 x4 y
      = hiddenNext (fun k => x0 (ix2 (n0 := 1024) (n1 := 256) (y 0) k)) (fun k => x1 (ix2 (n0 := 1024) (n1 := 256) (y 0) k)) (x2 y)
          (fun k n => x3 (ix2 k n)) (fun k n => x4 (ix2 k n)) (y 1) := by
  obtain ⟨r, u, rfl⟩ : ∃ (r : Fin 1024) (u : Fin 256), y = ix2 r u := ⟨y 0, y 1, eq_ix2 y⟩
  unfold out0_5
  rw [View.canon_unit_zero zero_offsets]
  simp only [View.ld_unit_zero (S := S1024x256) zero_offsets, View.ld_unit_zero (S := S256x1024) zero_offsets]
  exact hidden_payload x0 x1 x2 x3 x4 r u

end Payloads

end Cert.BinLstm.Kern

end
-- ==== Proof.SignMatrices.lean ====
/-
  The two sign matrices the region finds.

  Before the region is entered the host binarises each weight matrix once: it compares the matrix with zero, selects
  +1 where the weight is at least zero and -1 elsewhere, and changes the float format (the identity on the extended
  reals). So the buffer the body loads as its fourth operand holds, at (k, n), the sign of `kernel[k, n]`, and the
  fifth the sign of `recurrent_kernel[k, n]`.
-/
import proofs.«163236_j44607530336603_2_alg».proof.Proof.Gen.KernelIdeal.Frame
import proofs.«163236_j44607530336603_2_alg».proof.Proof.CellSpec
import Idealize.ShloMosaic.Lib.Pipeline.Value
import Idealize.ShloMosaic.Lib.ValueIdx
import Idealize.ShloMosaic.Lib.StableHlo.Run

noncomputable section

namespace Cert.BinLstm.Kern

open Cert.KernelIdeal Cert.KernelIdeal.Gen Idealize.ShloMosaic Idealize.ShloMosaic.TcCoe Idealize.SL.Sem
open Idealize.ShloMosaic.StableHlo Idealize.ShloMosaic.ValueIdx Cert.BinLstm

variable (m : (ℓ : Loc nD τ sig) → Buf (Elt Ideal) ℓ)

/-- A scalar constant spread over the 256 × 1024 shape reads that constant's value at every entry. -/
theorem splat_entry (w : BitVec 32) (i : S256x1024.Idx) :
    broadcastInDim S256x1024 ![] bcast_S_S256x1024 (constant (F := Ideal) S_ .f32 w) i = Ideal.ofBits .f32 w :=
  broadcastInDim_apply _ bcast_S_S256x1024 (constant (F := Ideal) S_ .f32 w) i (fun a => a.elim0) (fun a => a.elim0)

/-- The sign binarisation of a whole 256 × 1024 matrix, as the host computes it, at an entry. -/
theorem binarised_entry (W : S256x1024.Idx → EReal) (i : S256x1024.Idx) :
    (truncf .bf16 (select (cmpf .oge (W : FVec Ideal S256x1024 .f32)
        (broadcastInDim S256x1024 ![] bcast_S_S256x1024 (constant (F := Ideal) S_ .f32 0x00000000#32)))
      (broadcastInDim S256x1024 ![] bcast_S_S256x1024 (constant (F := Ideal) S_ .f32 0x3F800000#32))
      (broadcastInDim S256x1024 ![] bcast_S_S256x1024 (constant (F := Ideal) S_ .f32 0xBF800000#32))) bitsLt_bf16_f32
      : FVec Ideal S256x1024 .bf16) i = signOf (W i) := by
  show Scalar.select (FloatOps.cmpf .oge (W i) (broadcastInDim S256x1024 ![] bcast_S_S256x1024 (constant (F := Ideal) S_ .f32 0x00000000#32) i))
      (broadcastInDim S256x1024 ![] bcast_S_S256x1024 (constant (F := Ideal) S_ .f32 0x3F800000#32) i)
      (broadcastInDim S256x1024 ![] bcast_S_S256x1024 (constant (F := Ideal) S_ .f32 0xBF800000#32) i) = _
  rw [splat_entry, splat_entry, splat_entry]
  rfl

/-- The body's fourth operand, as the region finds it, is the sign of the input weights entry by entry. -/
theorem input_signs (c : Dev nD) (i : S256x1024.Idx) :
    (V m c main_v3 : S256x1024.Idx → EReal) i = signOf ((m ((c : Thread nD τ).loc main_arg3) : S256x1024.Idx → EReal) i) := by
  have e : (V m c main_v3 : S256x1024.Idx → EReal)
      = truncf .bf16 (select (cmpf .oge (m ((c : Thread nD τ).loc main_arg3) : FVec Ideal S256x1024 .f32)
          (broadcastInDim S256x1024 ![] bcast_S_S256x1024 (constant (F := Ideal) S_ .f32 0x00000000#32)))
        (broadcastInDim S256x1024 ![] bcast_S_S256x1024 (constant (F := Ideal) S_ .f32 0x3F800000#32))
        (broadcastInDim S256x1024 ![] bcast_S_S256x1024 (constant (F := Ideal) S_ .f32 0xBF800000#32))) bitsLt_bf16_f32 := by
    dsimp only [Gen.V]
    simp only [Gen.hostOps0, Gen.hostOps0_1, Gen.hostOps0_2, Gen.hostOps0_3, Gen.hostOps0_4, List.flatten_cons, List.flatten_nil, List.append_nil, List.cons_append, List.nil_append]
    after_results
    rfl
  rw [e]
  exact binarised_entry _ i

/-- The body's fifth operand, as the region finds it, is the sign of the recurrent weights entry by entry. -/
theorem recurrent_signs (c : Dev nD) (i : S256x1024.Idx) :
    (V m c main_v7 : S256x1024.Idx → EReal) i = signOf ((m ((c : Thread nD τ).loc main_arg4) : S256x1024.Idx → EReal) i) := by
  have e : (V m c main_v7 : S256x1024.Idx → EReal)
      = truncf .bf16 (select (cmpf .oge (m ((c : Thread nD τ).loc main_arg4) : FVec Ideal S256x1024 .f32)
          (broadcastInDim S256x1024 ![] bcast_S_S256x1024 (constant (F := Ideal) S_ .f32 0x00000000#32)))
        (broadcastInDim S256x1024 ![] bcast_S_S256x1024 (constant (F := Ideal) S_ .f32 0x3F800000#32))
        (broadcastInDim S256x1024 ![] bcast_S_S256x1024 (constant (F := Ideal) S_ .f32 0xBF800000#32))) bitsLt_bf16_f32 := by
    dsimp only [Gen.V]
    simp only [Gen.hostOps0, Gen.hostOps0_1, Gen.hostOps0_2, Gen.hostOps0_3, Gen.hostOps0_4, List.flatten_cons, List.flatten_nil, List.append_nil, List.cons_append, List.nil_append]
    after_results
    rfl
  rw [e]
  exact binarised_entry _ i

end Cert.BinLstm.Kern

end
-- ==== Proof.KernelArray.lean ====
/-
  From blocks to whole arrays: after the kernel's run the two result arrays hold the binarised LSTM step of CellSpec
  of the five argument arrays.

  The grid has 64 points. At point t the three batch-major operands and the two results are cut at block t of 1024
  rows (row r of the block is batch row 1024·t + r, all 256 columns), and the two sign matrices are taken whole at
  every point. So what point t writes back is block t of one whole-array function of the arguments, the 64 blocks
  cover every batch row (row b lies in block b / 1024), and the result arrays end holding that function.
-/
import proofs.«163236_j44607530336603_2_alg».proof.Proof.Gen.KernelIdeal.Value
import proofs.«163236_j44607530336603_2_alg».proof.Proof.KernelCell
import proofs.«163236_j44607530336603_2_alg».proof.Proof.SignMatrices

noncomputable section

namespace Cert.BinLstm.Kern

open Cert.KernelIdeal Cert.KernelIdeal.Gen Idealize.ShloMosaic Idealize.ShloMosaic.TcCoe Idealize.SL.Sem
open Idealize.ShloMosaic.Pipeline (Dat)
open Idealize.ShloMosaic.ValueIdx Cert.BinLstm

variable (m : (ℓ : Loc nD τ sig) → Buf (Elt Ideal) ℓ) (ρ : Dev nD → PrngReg)

/-! ## Where each window's block sits -/

/-- The printed index maps, decided over the 64 grid points: the five batch-major windows are at block row t, column
    block 0; the two sign matrices at block (0, 0). -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- The batch row that row r of the block at grid point t is. -/
def rowOf (t : Fin cfg0.N) (r : Fin 1024) : Fin 65536 :=
  ⟨1024 * t.val + r.val, by have h1 := t.isLt; have hN : cfg0.N = 64 := N_0; have h2 := r.isLt; omega⟩

/-- The block of `inputs` at point t, entry by entry. -/
theorem inputs_block (c : Dev nD) (t : Fin cfg0.N) (y : S1024x256.Idx) :
    (iblk m c 0 t : Vec Ideal S1024x256 .f32) y
      = (m ((c : Thread nD τ).loc main_arg0) : S65536x256.Idx → EReal) (ix2 (rowOf t (y 0)) (y 1)) := by
  obtain ⟨⟨e0, e1⟩, -⟩ := block_indices t
  unfold iblk
  rw [View.read_apply]
  show V m c main_arg0 _ = _
  rw [V_main_arg0]
  refine congrArg (m ((c : Thread nD τ).loc main_arg0) : S65536x256.Idx → EReal) (funext fun a => Fin.ext ?_)
  match a with
  | ⟨0, _⟩ => show win0_0.index t (0 : Fin 2) * 1024 + 1 * (y 0).val = 1024 * t.val + (y 0).val; rw [e0]; omega
  | ⟨1, _⟩ => show win0_0.index t (1 : Fin 2) * 256 + 1 * (y 1).val = (y 1).val; rw [e1]; omega

/-- The block of `h` at point t, entry by entry. -/
theorem hidden_block_read (c : Dev nD) (t : Fin cfg0.N) (y : S1024x256.Idx) :
    (iblk m c 1 t : Vec Ideal S1024x256 .f32) y
      = (m ((c : Thread nD τ).loc main_arg1) : S65536x256.Idx → EReal) (ix2 (rowOf t (y 0)) (y 1)) := by
  obtain ⟨-, ⟨e0, e1⟩, -⟩ := block_indices t
  unfold iblk
  rw [View.read_apply]
  show V m c main_arg1 _ = _
  rw [V_main_arg1]
  refine congrArg (m ((c : Thread nD τ).loc main_arg1) : S65536x256.Idx → EReal) (funext fun a => Fin.ext ?_)
  match a with
  | ⟨0, _⟩ => show win0_1.index t (0 : Fin 2) * 1024 + 1 * (y 0).val = 1024 * t.val + (y 0).val; rw [e0]; omega
  | ⟨1, _⟩ => show win0_1.index t (1 : Fin 2) * 256 + 1 * (y 1).val = (y 1).val; rw [e1]; omega

/-- The block of `c` at point t, entry by entry. -/
theorem cell_block_read (c : Dev nD) (t : Fin cfg0.N) (y : S1024x256.Idx) :
    (iblk m c 2 t : Vec Ideal S1024x256 .f32) y
      = (m ((c : Thread nD τ).loc main_arg2) : S65536x256.Idx → EReal) (ix2 (rowOf t (y 0)) (y 1)) := by
  obtain ⟨-, -, ⟨e0, e1⟩, -⟩ := block_indices t
  unfold iblk
  rw [View.read_apply]
  show V m c main_arg2 _ = _
  rw [V_main_arg2]
  refine congrArg (m ((c : Thread nD τ).loc main_arg2) : S65536x256.Idx → EReal) (funext fun a => Fin.ext ?_)
  match a with
  | ⟨0, _⟩ => show win0_2.index t (0 : Fin 2) * 1024 + 1 * (y 0).val = 1024 * t.val + (y 0).val; rw [e0]; omega
  | ⟨1, _⟩ => show win0_2.index t (1 : Fin 2) * 256 + 1 * (y 1).val = (y 1).val; rw [e1]; omega

/-- The input sign matrix is taken whole at every point. -/
theorem input_sign_block (c : Dev nD) (t : Fin cfg0.N) (k : Fin 256) (n : Fin 1024) :
    (iblk m c 3 t : Vec Ideal S256x1024 .bf16) (ix2 k n)
      = signOf ((m ((c : Thread nD τ).loc main_arg3) : S256x1024.Idx → EReal) (ix2 k n)) := by
  obtain ⟨-, -, -, ⟨e0, e1⟩, -⟩ := block_indices t
  unfold iblk
  rw [View.read_apply]
  show (V m c main_v3 : S256x1024.Idx → EReal) _ = _
  refine (congrArg (V m c main_v3 : S256x1024.Idx → EReal) (funext fun a => Fin.ext ?_)).trans (input_signs m c (ix2 k n))
  match a with
  | ⟨0, _⟩ => show win0_3.index t (0 : Fin 2) * 256 + 1 * k.val = k.val; rw [e0]; omega
  | ⟨1, _⟩ => show win0_3.index t (1 : Fin 2) * 1024 + 1 * n.val = n.val; rw [e1]; omega

/-- The recurrent sign matrix is taken whole at every point. -/
theorem recurrent_sign_block (c : Dev nD) (t : Fin cfg0.N) (k : Fin 256) (n : Fin 1024) :
    (iblk m c 4 t : Vec Ideal S256x1024 .bf16) (ix2 k n)
      = signOf ((m ((c : Thread nD τ).loc main_arg4) : S256x1024.Idx → EReal) (ix2 k n)) := by
  obtain ⟨-, -, -, -, ⟨e0, e1⟩, -⟩ := block_indices t
  unfold iblk
  rw [View.read_apply]
  show (V m c main_v7 : S256x1024.Idx → EReal) _ = _
  refine (congrArg (V m c main_v7 : S256x1024.Idx → EReal) (funext fun a => Fin.ext ?_)).trans (recurrent_signs m c (ix2 k n))
  match a with
  | ⟨0, _⟩ => show win0_4.index t (0 : Fin 2) * 256 + 1 * k.val = k.val; rw [e0]; omega
  | ⟨1, _⟩ => show win0_4.index t (1 : Fin 2) * 1024 + 1 * n.val = n.val; rw [e1]; omega

/-- Where entry y of the hidden result's block at point t sits in the array. -/
theorem hidden_out_entry (t : Fin cfg0.N) (y : S1024x256.Idx) :
    (((cfg0.win 5).blk t).view.emb y : S65536x256.Idx) = ix2 (rowOf t (y 0)) (y 1) := by
  obtain ⟨-, -, -, -, -, ⟨e0, e1⟩, -⟩ := block_indices t
  funext a
  apply Fin.ext
  match a with
  | ⟨0, _⟩ => show win0_5.index t (0 : Fin 2) * 1024 + 1 * (y 0).val = 1024 * t.val + (y 0).val; rw [e0]; omega
  | ⟨1, _⟩ => show win0_5.index t (1 : Fin 2) * 256 + 1 * (y 1).val = (y 1).val; rw [e1]; omega

/-- Where entry y of the cell-state result's block at point t sits in the array. -/
theorem cell_out_entry (t : Fin cfg0.N) (y : S1024x256.Idx) :
    (((cfg0.win 6).blk t).view.emb y : S65536x256.Idx) = ix2 (rowOf t (y 0)) (y 1) := by
  obtain ⟨-, -, -, -, -, -, e0, e1⟩ := block_indices t
  funext a
  apply Fin.ext
  match a with
  | ⟨0, _⟩ => show win0_6.index t (0 : Fin 2) * 1024 + 1 * (y 0).val = 1024 * t.val + (y 0).val; rw [e0]; omega
  | ⟨1, _⟩ => show win0_6.index t (1 : Fin 2) * 256 + 1 * (y 1).val = (y 1).val; rw [e1]; omega

/-! ## What a point writes back is its block of the whole-array function -/

/-- Equal rows, cell value, sign matrices and unit give equal new cell states. -/
theorem cellNext_congr {xr xr' hr hr' : Fin 256 → EReal} {cv cv' : EReal} {Wk Wk' Wr Wr' : Fin 256 → Fin 1024 → EReal}
    (u : Fin 256) (h1 : xr = xr') (h2 : hr = hr') (h3 : cv = cv') (h4 : Wk = Wk') (h5 : Wr = Wr') :
    cellNext xr hr cv Wk Wr u = cellNext xr' hr' cv' Wk' Wr' u := by
  subst h1 h2 h3 h4 h5; rfl

/-- Equal rows, cell value, sign matrices and unit give equal new hidden values. -/
theorem hiddenNext_congr {xr xr' hr hr' : Fin 256 → EReal} {cv cv' : EReal} {Wk Wk' Wr Wr' : Fin 256 → Fin 1024 → EReal}
    (u : Fin 256) (h1 : xr = xr') (h2 : hr = hr') (h3 : cv = cv') (h4 : Wk = Wk') (h5 : Wr = Wr') :
    hiddenNext xr hr cv Wk Wr u = hiddenNext xr' hr' cv' Wk' Wr' u := by
  subst h1 h2 h3 h4 h5; rfl

/-- What point t writes back to the cell-state result is block t of `cellArray` of the arguments. -/
theorem flushed_cell (c : Dev nD) (t : Fin cfg0.N) :
    (dats m 0 c).flushed 6 t
      = ((cfg0.win 6).blk t).view.read (Elt Ideal) (cellArray (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed6]
  funext j
  show out0_6 (F := Ideal) (iblk m c 0 t) (iblk m c 1 t) (iblk m c 2 t) (iblk m c 3 t) (iblk m c 4 t) j
      = cellArray (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb j)
  refine (cell_block (iblk m c 0 t) (iblk m c 1 t) (iblk m c 2 t) (iblk m c 3 t) (iblk m c 4 t) j).trans ?_
  rw [cell_out_entry t j]
  unfold cellArray
  exact cellNext_congr (j 1)
    (funext fun k => inputs_block m c t (ix2 (j 0) k))
    (funext fun k => hidden_block_read m c t (ix2 (j 0) k))
    (cell_block_read m c t j)
    (funext fun k => funext fun n => input_sign_block m c t k n)
    (funext fun k => funext fun n => recurrent_sign_block m c t k n)

/-- What point t writes back to the hidden result is block t of `hiddenArray` of the arguments. -/
theorem flushed_hidden (c : Dev nD) (t : Fin cfg0.N) :
    (dats m 0 c).flushed 5 t
      = ((cfg0.win 5).blk t).view.read (Elt Ideal) (hiddenArray (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed5]
  funext j
  show out0_5 (F := Ideal) (iblk m c 0 t) (iblk m c 1 t) (iblk m c 2 t) (iblk m c 3 t) (iblk m c 4 t) j
      = hiddenArray (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb j)
  refine (hidden_block (iblk m c 0 t) (iblk m c 1 t) (iblk m c 2 t) (iblk m c 3 t) (iblk m c 4 t) j).trans ?_
  rw [hidden_out_entry t j]
  unfold hiddenArray
  exact hiddenNext_congr (j 1)
    (funext fun k => inputs_block m c t (ix2 (j 0) k))
    (funext fun k => hidden_block_read m c t (ix2 (j 0) k))
    (cell_block_read m c t j)
    (funext fun k => funext fun n => input_sign_block m c t k n)
    (funext fun k => funext fun n => recurrent_sign_block m c t k n)

/-! ## The 64 blocks cover the arrays -/

/-- An array entry is in point t's block of the hidden result iff each coordinate is in the block's range. -/
theorem mem_hidden_block (t : Fin cfg0.N) (i : S65536x256.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v8_0).slice (win0_5.rect t)).set ↔ _
  rw [View.set_slice_whole, Rect.mem_set_unit]
  exact Iff.rfl

/-- An array entry is in point t's block of the cell-state result iff each coordinate is in the block's range. -/
theorem mem_cell_block (t : Fin cfg0.N) (i : S65536x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v8_1).slice (win0_6.rect t)).set ↔ _
  rw [View.set_slice_whole, Rect.mem_set_unit]
  exact Iff.rfl

/-- The grid point whose block holds batch row b: b / 1024. -/
theorem point_of_row (i : S65536x256.Idx) : ∃ t : Fin cfg0.N, t.val = (i 0).val / 1024 := by
  have hi0 : (i 0).val < 65536 := (i 0).isLt
  have hN : cfg0.N = 64 := N_0
  exact ⟨⟨(i 0).val / 1024, by rw [hN]; omega⟩, rfl⟩

/-- Every entry of the hidden result is in some point's block. -/
theorem cover_hidden (i : S65536x256.Idx) :
    ∃ t : Fin cfg0.N, (cfg0.win 5).flush t = true ∧ i ∈ ((cfg0.win 5).blk t).view.set := by
  have hi0 : (i 0).val < 65536 := (i 0).isLt
  have hi1 : (i 1).val < 256 := (i 1).isLt
  obtain ⟨t, ht⟩ := point_of_row i
  obtain ⟨-, -, -, -, -, ⟨e0, e1⟩, -⟩ := block_indices t
  refine ⟨t, flush0_5 t, ?_⟩
  rw [mem_hidden_block]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 256 ≤ (i 1).val ∧ (i 1).val < win0_5.index t (1 : Fin 2) * 256 + 256
    rw [e1]; omega

/-- Every entry of the cell-state result is in some point's block. -/
theorem cover_cell (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  obtain ⟨t, ht⟩ := point_of_row i
  obtain ⟨-, -, -, -, -, -, e0, e1⟩ := block_indices t
  refine ⟨t, flush0_6 t, ?_⟩
  rw [mem_cell_block]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 256 ≤ (i 1).val ∧ (i 1).val < win0_6.index t (1 : Fin 2) * 256 + 256
    rw [e1]; omega

/-! ## The arrays after the run, and the run -/

/-- The hidden result ends holding `hiddenArray` of the arguments. -/
theorem final_hidden (c : Dev nD) :
    (dats m 0 c).arrAt 5 cfg0.N = hiddenArray (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (hiddenArray (m ((c : Thread nD τ).loc main_arg0)) (m ((c : Thread nD τ).loc main_arg1)) (m ((c : Thread nD τ).loc main_arg2)) (m ((c : Thread nD τ).loc main_arg3)) (m ((c : Thread nD τ).loc main_arg4)))
    (fun t _ => flushed_hidden m c t) cover_hidden

/-- The cell-state result ends holding `cellArray` of the arguments. -/
theorem final_cell (c : Dev nD) :
    (dats m 0 c).arrAt 6 cfg0.N = cellArray (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (cellArray (m ((c : Thread nD τ).loc main_arg0)) (m ((c : Thread nD τ).loc main_arg1)) (m ((c : Thread nD τ).loc main_arg2)) (m ((c : Thread nD τ).loc main_arg3)) (m ((c : Thread nD τ).loc main_arg4)))
    (fun t _ => flushed_cell m c t) cover_cell

/-- The kernel's run: it terminates with the two result arrays at the binarised LSTM step of the arguments, and the
    arguments unchanged. -/
theorem run : θ_run defs (onTc (τ := τ) (main (F := Ideal))) ⟨m, fun _ => 0, ρ⟩ fun r => ∀ c : Dev nD,
      r.2.mem ((c : Thread nD τ).loc main_v8_0) = hiddenArray (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v8_1) = cellArray (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_hidden m c), (h c).2.1.trans (final_cell m c), (h c).2.2⟩)
    (Cert.KernelIdeal.Value.run_blocks m ρ)

end Cert.BinLstm.Kern

end
-- ==== Proof.lean ====
/-
  One step of a binarised LSTM cell with hard-tanh activations, computed block by block over the batch, against the
  same step computed on whole arrays.

  Both programs clamp h and c to [-1, 1], replace each of the two 256 × 1024 weight matrices by its signs (+1 where a
  weight is at least zero, -1 elsewhere), project the inputs and the clamped h through them, clamp the input
  projection, and combine the four gate blocks per unit into the new cell state and the new hidden value
  (Proof/CellSpec.lean has the formula). The blocked program binarises the weights once on the host, then for each of
  64 blocks of 1024 batch rows multiplies the block by the whole sign matrices into a zero accumulator, passing
  through a narrower float format on the way in; the other program takes the two projections as single 65536-row
  matrix products. On the extended reals a change of float format is the identity and a product into a zero
  accumulator is the plain sum over the 256 features, so entry by entry both are the same expression in the same
  order; no algebraic law joins the two sides, and finiteness of the inputs is never used.

  The parts: the reference's result stages read entry by entry (Proof/RefCell.lean); the body's stored values read
  entry by entry over a block (Proof/KernelCell.lean); the host-computed sign matrices (Proof/SignMatrices.lean); from
  the 64 blocks to the whole result arrays (Proof/KernelArray.lean). The three frame claims are the generated frames
  and the reference's generated run; the idealisation rewrote nothing, so the fourth claim is `True`.
-/
import proofs.«163236_j44607530336603_2_alg».proof.Defs
import proofs.«163236_j44607530336603_2_alg».proof.Proof.Gen.Kernel
import proofs.«163236_j44607530336603_2_alg».proof.Proof.Gen.Kernel.Frame
import proofs.«163236_j44607530336603_2_alg».proof.Proof.Gen.KernelIdeal
import proofs.«163236_j44607530336603_2_alg».proof.Proof.Gen.KernelIdeal.Frame
import proofs.«163236_j44607530336603_2_alg».proof.Proof.Gen.KernelIdeal.Value
import proofs.«163236_j44607530336603_2_alg».proof.Proof.Gen.ReferenceIdeal
import proofs.«163236_j44607530336603_2_alg».proof.Proof.Gen.ReferenceIdeal.Run
import proofs.«163236_j44607530336603_2_alg».proof.Proof.Gen.ReferenceIdeal.Read
import proofs.«163236_j44607530336603_2_alg».proof.Proof.Gen.Pre_finite_inputs
import proofs.«163236_j44607530336603_2_alg».proof.Proof.RefCell
import proofs.«163236_j44607530336603_2_alg».proof.Proof.KernelArray

noncomputable section

namespace Cert.Proof

open Idealize.ShloMosaic Idealize.ShloMosaic.TcCoe Idealize.SL.Sem Cert.BinLstm

/-- The blocked program as printed runs to the end without a fault and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The whole-array program runs to the end and leaves its arguments as they were: its run, with the results
    dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- The reading on the extended reals rewrote no operation of the blocked program. -/
theorem preserves : Cert.preserves_Kernel_KernelIdeal := trivial

/-- From memories that agree on the five arguments both programs end with the hidden result (returned twice) at
    `hiddenArray` and the cell-state result at `cellArray` of those arguments. -/
theorem algebraic : Cert.algebraic_KernelIdeal_ReferenceIdeal := by
  intro m ρ m' ρ' _ hagree
  refine ⟨fun c => hiddenArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => hiddenArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => cellArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1, (h c).1, (h c).2⟩) (Cert.BinLstm.Kern.run m ρ)
  · refine (θ_run Cert.ReferenceIdeal.defs _ _).mono (fun _ h c => ?_) (Cert.ReferenceIdeal.Value.run (F := Ideal) m' ρ')
    obtain ⟨a0, a1, a2, a3, a4⟩ := hagree c
    refine ⟨(h c).1.trans ?_, (h c).2.1.trans ?_, (h c).2.2.1.trans ?_, (h c).2.2.2⟩
    · rw [Cert.ReferenceIdeal.Read.val_main_v34_eq, Cert.BinLstm.Ref.hidden_result, a0, a1, a2, a3, a4]
    · rw [Cert.ReferenceIdeal.Read.val_main_v34_eq, Cert.BinLstm.Ref.hidden_result, a0, a1, a2, a3, a4]
    · rw [Cert.ReferenceIdeal.Read.val_main_v29_eq, Cert.BinLstm.Ref.cell_result, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
